-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x96x8x8 : Shape := ⟨4, ![64, 96, 8, 8]⟩
abbrev S_ : Shape := ⟨0, ![]⟩

class Facts : Prop where
  bcast_S_S64x96x8x8 : S_.BroadcastsInDim S64x96x8x8 (![] : Fin 0 → Fin S64x96x8x8.rank)
  reducesTo_S64x96x8x8_S_d0_1_2_3 : S64x96x8x8.ReducesTo [0, 1, 2, 3] S_
  h_S_ : 0 < S_.numel

variable [Facts]

def fn {F : FTy → Type} [FloatOps F] (main_arg0 : FVec F S64x96x8x8 .f32) : IVec S_ 1 :=
  let main_v0 : FVec F S64x96x8x8 .f32 := Host.absf main_arg0
  let main_cst : FVec F S_ .f32 := constant S_ .f32 0x7F800000#32
  let main_v1 : FVec F S64x96x8x8 .f32 := broadcastInDim S64x96x8x8 ![] bcast_S_S64x96x8x8 main_cst
  let main_v2 : IVec S64x96x8x8 1 := cmpf .olt main_v0 main_v1
  let main_c : IVec S_ 1 := constantI S_ 1 1#1
  let main_v3 : IVec S_ 1 := (fun x v => Host.reduce IntOp.andi x v reducesTo_S64x96x8x8_S_d0_1_2_3 h_S_) main_v2 main_c
  main_v3
-- ==== Kernel.lean ====
abbrev S64x96x8x8 : Shape := ⟨4, ![64, 96, 8, 8]⟩
abbrev S128 : Shape := ⟨1, ![128]⟩
abbrev S64x96x96x128 : Shape := ⟨4, ![64, 96, 96, 128]⟩
abbrev S1x96x8x8 : Shape := ⟨4, ![1, 96, 8, 8]⟩
abbrev S1x96x96x128 : Shape := ⟨4, ![1, 96, 96, 128]⟩
abbrev S96x8x8 : Shape := ⟨3, ![96, 8, 8]⟩
abbrev S96x64 : Shape := ⟨2, ![96, 64]⟩
abbrev S96x1x64 : Shape := ⟨3, ![96, 1, 64]⟩
abbrev S96x96x64 : Shape := ⟨3, ![96, 96, 64]⟩
abbrev S1x96x64 : Shape := ⟨3, ![1, 96, 64]⟩
abbrev S96x96x128 : Shape := ⟨3, ![96, 96, 128]⟩
abbrev S1x1x128 : Shape := ⟨3, ![1, 1, 128]⟩
abbrev S96x96x128x1 : Shape := ⟨4, ![96, 96, 128, 1]⟩
abbrev S64x96x96x8x8x2 : Shape := ⟨6, ![64, 96, 96, 8, 8, 2]⟩

abbrev nBuf : Space → Nat
  | .hbm => 4
  | .vmem => 5
  | .smem => 0
  | _ => 0

abbrev bufTy : (tb : Table) → Fin (tcTables nBuf tb) → BufTy
  | .hbm, ⟨0, _⟩ => ⟨S64x96x8x8, .f32⟩
  | .hbm, ⟨1, _⟩ => ⟨S128, .i32⟩
  | .hbm, ⟨2, _⟩ => ⟨S64x96x96x128, .f32⟩
  | .hbm, ⟨3, _⟩ => ⟨S64x96x96x8x8x2, .f32⟩
  | .local _ .vmem, ⟨0, _⟩ => ⟨S1x96x8x8, .f32⟩
  | .local _ .vmem, ⟨1, _⟩ => ⟨S1x96x8x8, .f32⟩
  | .local _ .vmem, ⟨2, _⟩ => ⟨S128, .i32⟩
  | .local _ .vmem, ⟨3, _⟩ => ⟨S1x96x96x128, .f32⟩
  | .local _ .vmem, ⟨4, _⟩ => ⟨S1x96x96x128, .f32⟩
  | _, _ => ⟨S64x96x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x8x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x96x96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x96x8x8_S1x96x8x8_0_0_0_0 : ∀ a, (![0, 0, 0, 0] : Fin 4 → Nat) a + S1x96x8x8.size a ≤ S1x96x8x8.size a
  h_S1x96x8x8 : 0 < S1x96x8x8.numel
  shapeCasts_S1x96x8x8_S96x8x8 : S1x96x8x8.ShapeCasts S96x8x8
  shapeCasts_S96x8x8_S96x64 : S96x8x8.ShapeCasts S96x64
  shapeCasts_S96x64_S96x1x64 : S96x64.ShapeCasts S96x1x64
  shapeCasts_S96x1x64_S96x1x64 : S96x1x64.ShapeCasts S96x1x64
  broadcasts_S96x1x64_S96x96x64 : S96x1x64.Broadcasts S96x96x64
  shapeCasts_S96x64_S1x96x64 : S96x64.ShapeCasts S1x96x64
  shapeCasts_S1x96x64_S1x96x64 : S1x96x64.ShapeCasts S1x96x64
  broadcasts_S1x96x64_S96x96x64 : S1x96x64.Broadcasts S96x96x64
  concatenates_S96x96x64_S96x96x64_S96x96x128_d2 : Shape.Concatenates [S96x96x64, S96x96x64] S96x96x128 2
  inb_S128_S128_0 : ∀ a, (![0] : Fin 1 → Nat) a + S128.size a ≤ S128.size a
  h_S128 : 0 < S128.numel
  shapeCasts_S128_S1x1x128 : S128.ShapeCasts S1x1x128
  shapeCasts_S1x1x128_S1x1x128 : S1x1x128.ShapeCasts S1x1x128
  broadcasts_S1x1x128_S96x96x128 : S1x1x128.Broadcasts S96x96x128
  shapeCasts_S96x96x128_S96x96x128x1 : S96x96x128.ShapeCasts S96x96x128x1
  shapeCasts_S96x96x128x1_S96x96x128 : S96x96x128x1.ShapeCasts S96x96x128
  inb_S1x96x96x128_S1x96x96x128_0_0_0_0 : ∀ a, (![0, 0, 0, 0] : Fin 4 → Nat) a + S1x96x96x128.size a ≤ S1x96x96x128.size a
  h_S1x96x96x128 : 0 < S1x96x96x128.numel
  shapeCasts_S1x96x96x128_S96x96x128 : S1x96x96x128.ShapeCasts S96x96x128
  shapeCasts_S96x96x128_S1x96x96x128 : S96x96x128.ShapeCasts S1x96x96x128
  shapeCasts_S64x96x96x128_S64x96x96x8x8x2 : S64x96x96x128.ShapeCasts S64x96x96x8x8x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x8x8.size a ≤ S64x96x8x8.size a
  hwx0_0 : ∀ i : grid0.Coords, EltTy.bits .f32 = 32 ∨ (Rect.block (s := S64x96x8x8) S1x96x8x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .i32 = 32 ∨ (Rect.block (s := S128) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x96x128.size a ≤ S64x96x96x128.size a
  hwx0_2 : ∀ i : grid0.Coords, EltTy.bits .f32 = 32 ∨ (Rect.block (s := S64x96x96x128) S1x96x96x128.size (cc0_transform_2 i) (hinb0_2 i)).WholeWords (EltTy.packing .f32)

variable [Facts₀]

abbrev win0_0 : Pipeline.Window sig grid0 :=
  Pipeline.Window.ofSpec (Memref.whole main_arg0) S1x96x8x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_c) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x96x96x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x96x8x8 : Shape := ⟨4, ![64, 96, 8, 8]⟩
abbrev S64x96x1x8x8 : Shape := ⟨5, ![64, 96, 1, 8, 8]⟩
abbrev S64x96x96x8x8 : Shape := ⟨5, ![64, 96, 96, 8, 8]⟩
abbrev S64x1x96x8x8 : Shape := ⟨5, ![64, 1, 96, 8, 8]⟩
abbrev S64x96x96x8x8x1 : Shape := ⟨6, ![64, 96, 96, 8, 8, 1]⟩
abbrev S64x96x96x8x8x2 : Shape := ⟨6, ![64, 96, 96, 8, 8, 2]⟩

abbrev nBuf : Space → Nat
  | .hbm => 8
  | .vmem => 0
  | .smem => 0
  | _ => 0

abbrev bufTy : (tb : Table) → Fin (tcTables nBuf tb) → BufTy
  | .hbm, ⟨0, _⟩ => ⟨S64x96x8x8, .f32⟩
  | .hbm, ⟨1, _⟩ => ⟨S64x96x1x8x8, .f32⟩
  | .hbm, ⟨2, _⟩ => ⟨S64x96x96x8x8, .f32⟩
  | .hbm, ⟨3, _⟩ => ⟨S64x1x96x8x8, .f32⟩
  | .hbm, ⟨4, _⟩ => ⟨S64x96x96x8x8, .f32⟩
  | .hbm, ⟨5, _⟩ => ⟨S64x96x96x8x8x1, .f32⟩
  | .hbm, ⟨6, _⟩ => ⟨S64x96x96x8x8x1, .f32⟩
  | .hbm, ⟨7, _⟩ => ⟨S64x96x96x8x8x2, .f32⟩
  | _, _ => ⟨S64x96x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]

class Facts₀ : Prop where
  bcast_S64x96x8x8_S64x96x1x8x8_0_1_3_4 : S64x96x8x8.BroadcastsInDim S64x96x1x8x8 (![0, 1, 3, 4] : Fin 4 → Fin S64x96x1x8x8.rank)
  bcast_S64x96x1x8x8_S64x96x96x8x8_0_1_2_3_4 : S64x96x1x8x8.BroadcastsInDim S64x96x96x8x8 (![0, 1, 2, 3, 4] : Fin 5 → Fin S64x96x96x8x8.rank)
  bcast_S64x96x8x8_S64x1x96x8x8_0_2_3_4 : S64x96x8x8.BroadcastsInDim S64x1x96x8x8 (![0, 2, 3, 4] : Fin 4 → Fin S64x1x96x8x8.rank)
  bcast_S64x1x96x8x8_S64x96x96x8x8_0_1_2_3_4 : S64x1x96x8x8.BroadcastsInDim S64x96x96x8x8 (![0, 1, 2, 3, 4] : Fin 5 → Fin S64x96x96x8x8.rank)
  bcast_S64x96x96x8x8_S64x96x96x8x8x1_0_1_2_3_4 : S64x96x96x8x8.BroadcastsInDim S64x96x96x8x8x1 (![0, 1, 2, 3, 4] : Fin 5 → Fin S64x96x96x8x8x1.rank)
  concatenates_S64x96x96x8x8x1_S64x96x96x8x8x1_S64x96x96x8x8x2_d5 : Shape.Concatenates [S64x96x96x8x8x1, S64x96x96x8x8x1] S64x96x96x8x8x2 5

variable [Facts₀]

class Facts : Prop extends Facts₀ where

variable [Facts]
-- ==== Proof.Interleave.lean ====
/-
  The mathematics of this certificate, with no program in sight.

  An input `x` of shape [64, 96, 8, 8] is a batch of 64 sets of 96 tiles of 8 × 8 numbers. The result pairs every
  two tiles of a batch element: at (b, i, j, p, q, s) it holds `x (b, i, p, q)` when `s = 0` and `x (b, j, p, q)` when
  `s = 1` (`pairForm`, shape [64, 96, 96, 8, 8, 2]).

  The same numbers laid out with the three trailing axes flattened into one lane axis of 8 · 8 · 2 = 128 entries
  (`laneForm`, shape [64, 96, 96, 128]): lane `l` is the pair member `l % 2` of tile entry `l / 2`, that is of row
  `l / 2 / 8` and column `l / 2 % 8`. Reading the lane form in row-major order under the six-axis shape gives the pair
  form (`laneForm_reshape`): position ((p · 8 + q) · 2 + s) of the lane axis is (p, q, s).
-/
import Idealize.ShloMosaic.Lib.Pipeline.Value
import Idealize.ShloMosaic.Lib.ValueIdxRank6

noncomputable section

namespace Cert.Interleave

open Idealize.ShloMosaic Idealize.ShloMosaic.ValueIdx

variable {α : Type}

/-- The input: 64 batch elements of 96 tiles of 8 × 8. -/
abbrev SIn : Shape := ⟨4, ![64, 96, 8, 8]⟩
/-- The lane-dense result: per batch element and pair of tiles, 128 lanes. -/
abbrev SLane : Shape := ⟨4, ![64, 96, 96, 128]⟩
/-- The result: per batch element and pair of tiles, an 8 × 8 tile of pairs. -/
abbrev SPair : Shape := ⟨6, ![64, 96, 96, 8, 8, 2]⟩

/-- The tile row a lane belongs to. -/
theorem lane_row_lt (l : Fin 128) : l.val / 2 / 8 < 8 := by omega
/-- The tile column a lane belongs to. -/
theorem lane_col_lt (l : Fin 128) : l.val / 2 % 8 < 8 := by omega
/-- Either of two tile numbers is a tile number. -/
theorem pick_lt (c : Prop) [Decidable c] (a b : Fin 96) : (if c then a.val else b.val) < 96 := by
  split
  · exact a.isLt
  · exact b.isLt

/-- The lane-dense result: lane `l` of (b, i, j) is entry (l / 2 / 8, l / 2 % 8) of tile `i` for an even lane, of
    tile `j` for an odd one. -/
def laneForm (x : SIn.Idx → α) : SLane.Idx → α := fun j =>
  x (ix4 (j 0 : Fin 64) (⟨if (j 3).val % 2 = 0 then (j 1).val else (j 2).val, pick_lt _ (j 1) (j 2)⟩ : Fin 96)
    (⟨(j 3).val / 2 / 8, lane_row_lt (j 3)⟩ : Fin 8) (⟨(j 3).val / 2 % 8, lane_col_lt (j 3)⟩ : Fin 8))

/-- The result: member `s` of the pair at (b, i, j, p, q) is entry (p, q) of tile `i` for `s = 0`, of tile `j`
    for `s = 1`. -/
def pairForm (x : SIn.Idx → α) : SPair.Idx → α := fun i =>
  x (ix4 (i 0 : Fin 64) (⟨if (i 5).val = 0 then (i 1).val else (i 2).val, pick_lt _ (i 1) (i 2)⟩ : Fin 96)
    (i 3 : Fin 8) (i 4 : Fin 8))

/-- The lane form read in row-major order under the six-axis shape is the pair form: the element at (b, i, j, p, q, s)
    is the one at lane (p · 8 + q) · 2 + s of (b, i, j), whose parity is `s` and whose half is p · 8 + q. -/
theorem laneForm_reshape (x : SIn.Idx → α) (h : SLane.ShapeCasts SPair) :
    shapeCast SPair (laneForm x) h = pairForm x := by
  funext i
  have h3 : (i 3).val < 8 := (i 3).isLt
  have h4 : (i 4).val < 8 := (i 4).isLt
  have h5 : (i 5).val < 2 := (i 5).isLt
  refine (shapeCast_apply (laneForm x) h i
    (ix4 (i 0 : Fin 64) (i 1 : Fin 96) (i 2 : Fin 96)
      (⟨((i 3).val * 8 + (i 4).val) * 2 + (i 5).val, by omega⟩ : Fin 128)) ?_).trans ?_
  · rw [Shape.rowMajor_val_four, Shape.rowMajor_val_six]
    show (((i 0).val * 96 + (i 1).val) * 96 + (i 2).val) * 128 + (((i 3).val * 8 + (i 4).val) * 2 + (i 5).val)
      = (((((i 0).val * 96 + (i 1).val) * 96 + (i 2).val) * 8 + (i 3).val) * 8 + (i 4).val) * 2 + (i 5).val
    omega
  · unfold laneForm pairForm
    refine congrArg x (funext fun a => Fin.ext ?_)
    match a with
    | ⟨0, _⟩ => rfl
    | ⟨1, _⟩ =>
      show (if (((i 3).val * 8 + (i 4).val) * 2 + (i 5).val) % 2 = 0 then (i 1).val else (i 2).val)
        = (if (i 5).val = 0 then (i 1).val else (i 2).val)
      by_cases h0 : (i 5).val = 0
      · rw [if_pos h0, if_pos (by omega)]
      · rw [if_neg h0, if_neg (by omega)]
    | ⟨2, _⟩ => show (((i 3).val * 8 + (i 4).val) * 2 + (i 5).val) / 2 / 8 = (i 3).val; omega
    | ⟨3, _⟩ => show (((i 3).val * 8 + (i 4).val) * 2 + (i 5).val) / 2 % 8 = (i 4).val; omega

end Cert.Interleave

end
-- ==== Proof.RefPairs.lean ====
/-
  The reference computes the pair form.

  Its result is the concatenation, along a sixth axis, of two arrays of shape [64, 96, 96, 8, 8, 1]: the input
  repeated along a new third axis (so that it no longer depends on `j`) and the input repeated along a new second axis
  (so that it no longer depends on `i`). Position 0 of the joined axis therefore reads `x (b, i, p, q)` and position
  1 reads `x (b, j, p, q)`: the pair form, index by index.
-/
import proofs.«142939_j62826781606169_1_alg».proof.Proof.Gen.ReferenceIdeal.Read
import proofs.«142939_j62826781606169_1_alg».proof.Proof.Interleave

noncomputable section

namespace Cert.ReferenceIdeal.Pairs

open Cert.ReferenceIdeal Cert.ReferenceIdeal.Gen Idealize.ShloMosaic Idealize.ShloMosaic.ValueIdx

variable {F : FTy → Type} [FloatOps F]

/-- The reference's result, as a function of its argument, is the pair form of the argument. -/
theorem result_eq (x : (⟨S64x96x8x8, .f32⟩ : BufTy).Contents (Elt F)) :
    Read.val_main_v6 (F := F) x = Cert.Interleave.pairForm x := by
  funext i
  have h5 : (i 5).val < 2 := (i 5).isLt
  unfold Read.val_main_v6
  by_cases h0 : (i 5).val = 0
  · -- the first piece: the tile numbered by the second axis
    refine (concatenate_pair_apply_left (5 : Fin 6) (Read.val_main_v4 (F := F) x) (Read.val_main_v5 (F := F) x)
      concatenates_S64x96x96x8x8x1_S64x96x96x8x8x1_S64x96x96x8x8x2_d5 i rfl
      (ix6 (i 0 : Fin 64) (i 1 : Fin 96) (i 2 : Fin 96) (i 3 : Fin 8) (i 4 : Fin 8) (0 : Fin 1)) ?_).trans ?_
    · intro b
      match b with
      | ⟨0, _⟩ => rfl
      | ⟨1, _⟩ => rfl
      | ⟨2, _⟩ => rfl
      | ⟨3, _⟩ => rfl
      | ⟨4, _⟩ => rfl
      | ⟨5, _⟩ => exact h0.symm
    · rw [Read.val_main_v4_apply, Read.val_main_v1_apply, Read.val_main_v0_apply]
      unfold Cert.Interleave.pairForm
      refine congrArg x (funext fun a => Fin.ext ?_)
      match a with
      | ⟨0, _⟩ => rfl
      | ⟨1, _⟩ => show (i 1).val = if (i 5).val = 0 then (i 1).val else (i 2).val; rw [if_pos h0]
      | ⟨2, _⟩ => rfl
      | ⟨3, _⟩ => rfl
  · -- the second piece: the tile numbered by the third axis
    have h1 : (i 5).val = 1 := by omega
    refine (concatenate_pair_apply_right (5 : Fin 6) (Read.val_main_v4 (F := F) x) (Read.val_main_v5 (F := F) x)
      concatenates_S64x96x96x8x8x1_S64x96x96x8x8x1_S64x96x96x8x8x2_d5 i rfl rfl
      (ix6 (i 0 : Fin 64) (i 1 : Fin 96) (i 2 : Fin 96) (i 3 : Fin 8) (i 4 : Fin 8) (0 : Fin 1)) ?_ ?_).trans ?_
    · intro b hb
      match b with
      | ⟨0, _⟩ => rfl
      | ⟨1, _⟩ => rfl
      | ⟨2, _⟩ => rfl
      | ⟨3, _⟩ => rfl
      | ⟨4, _⟩ => rfl
      | ⟨5, _⟩ => exact absurd (Fin.ext rfl) hb
    · show 0 + 1 = (i 5).val
      omega
    · rw [Read.val_main_v5_apply, Read.val_main_v3_apply, Read.val_main_v2_apply]
      unfold Cert.Interleave.pairForm
      refine congrArg x (funext fun a => Fin.ext ?_)
      match a with
      | ⟨0, _⟩ => rfl
      | ⟨1, _⟩ => show (i 2).val = if (i 5).val = 0 then (i 1).val else (i 2).val; rw [if_neg h0]
      | ⟨2, _⟩ => rfl
      | ⟨3, _⟩ => rfl

end Cert.ReferenceIdeal.Pairs

end
-- ==== Proof.LibLastAxis.lean ====
/-
  A rank-3 vector [a, b, n] handled along its LAST axis, read at an index written by coordinates: a gather whose
  indices select positions of the last axis, and a concatenation of two vectors [a, b, n₁] and [a, b, n₂] along it.
  Nothing here depends on a program; the element type is arbitrary.
-/
import Idealize.ShloMosaic.Lib.Pipeline.Value
import Idealize.ShloMosaic.Lib.ValueIdx

noncomputable section

namespace Cert.LastAxis

open Idealize.ShloMosaic Idealize.ShloMosaic.ValueIdx

variable {α : Type}

/-- A gather along the last axis reads, at (i, j, l), the source at (i, j, p), where `p` is the index word found at
    (i, j, l), read unsigned and reduced modulo the axis's extent. -/
theorem dynamicGather_apply {a b n : ℕ} (x : (⟨3, ![a, b, n]⟩ : Shape).Idx → α) (idx : IVec ⟨3, ![a, b, n]⟩ 32)
    (i : Fin a) (j : Fin b) (l p : Fin n) (hp : p.val = (idx (ix3 i j l)).toNat % n) :
    dynamicGather (s := ⟨3, ![a, b, n]⟩) (2 : Fin 3) x idx (ix3 i j l) = x (ix3 i j p) := by
  unfold dynamicGather
  refine congrArg x (funext fun d => ?_)
  match d with
  | ⟨0, _⟩ => rfl
  | ⟨1, _⟩ => rfl
  | ⟨2, _⟩ => exact Fin.ext hp.symm

/-- Two vectors joined along the last axis: a position below the first extent reads the first vector there. -/
theorem concatenate_apply_fst {a b n₁ n₂ n : ℕ} (x₁ : (⟨3, ![a, b, n₁]⟩ : Shape).Idx → α)
    (x₂ : (⟨3, ![a, b, n₂]⟩ : Shape).Idx → α)
    (h : Shape.Concatenates [⟨3, ![a, b, n₁]⟩, ⟨3, ![a, b, n₂]⟩] ⟨3, ![a, b, n]⟩ (2 : Fin 3))
    (i : Fin a) (j : Fin b) (p : Fin n) (q : Fin n₁) (hq : q.val = p.val) :
    concatenate ⟨3, ![a, b, n]⟩ (2 : Fin 3) [⟨⟨3, ![a, b, n₁]⟩, x₁⟩, ⟨⟨3, ![a, b, n₂]⟩, x₂⟩] h (ix3 i j p)
      = x₁ (ix3 i j q) :=
  concatenate_pair_apply_left (2 : Fin 3) x₁ x₂ h (ix3 i j p) rfl (ix3 i j q) fun d =>
    match d with
    | ⟨0, _⟩ => rfl
    | ⟨1, _⟩ => rfl
    | ⟨2, _⟩ => hq

/-- Two vectors joined along the last axis: a position at or past the first extent reads the second vector at the
    position less that extent. -/
theorem concatenate_apply_snd {a b n₁ n₂ n : ℕ} (x₁ : (⟨3, ![a, b, n₁]⟩ : Shape).Idx → α)
    (x₂ : (⟨3, ![a, b, n₂]⟩ : Shape).Idx → α)
    (h : Shape.Concatenates [⟨3, ![a, b, n₁]⟩, ⟨3, ![a, b, n₂]⟩] ⟨3, ![a, b, n]⟩ (2 : Fin 3))
    (i : Fin a) (j : Fin b) (p : Fin n) (q : Fin n₂) (hq : q.val + n₁ = p.val) :
    concatenate ⟨3, ![a, b, n]⟩ (2 : Fin 3) [⟨⟨3, ![a, b, n₁]⟩, x₁⟩, ⟨⟨3, ![a, b, n₂]⟩, x₂⟩] h (ix3 i j p)
      = x₂ (ix3 i j q) :=
  concatenate_pair_apply_right (2 : Fin 3) x₁ x₂ h (ix3 i j p) rfl rfl (ix3 i j q)
    (fun d hd =>
      match d, hd with
      | ⟨0, _⟩, _ => rfl
      | ⟨1, _⟩, _ => rfl
      | ⟨2, _⟩, hd => absurd (Fin.ext rfl) hd)
    hq

end Cert.LastAxis

end
-- ==== Proof.LaneGather.lean ====
/-
  What the kernel's body stores, read at an index.

  For one batch element the body holds the 96 tiles as a [1, 96, 8, 8] block `x0` and a table of 128 lane numbers
  `perm`. It flattens each tile into a row of 64 (`flat`), repeats the rows along a new second axis and along a
  new first axis, joins the two [96, 96, 64] vectors along the last axis (`joined`: lane `p < 64` of (i, j) is
  entry `p` of tile `i`, lane `64 + p` is entry `p` of tile `j`), and gathers along the last axis with the table,
  repeated over (i, j) and with negative entries wrapped by 128 (`wrapped`).

  The table is `0, 64, 1, 65, …, 63, 127`: lane `l` of the result takes lane `l / 2` of the joined vector for an
  even `l` and lane `64 + l / 2` for an odd one. So lane `l` of (i, j) is entry `l / 2` — row `l / 2 / 8`, column
  `l / 2 % 8` — of tile `i` for an even lane and of tile `j` for an odd one (`payload_apply`).
-/
import proofs.«142939_j62826781606169_1_alg».proof.Proof.Gen.KernelIdeal.Skeleton
import proofs.«142939_j62826781606169_1_alg».proof.Proof.Interleave
import proofs.«142939_j62826781606169_1_alg».proof.Proof.LibLastAxis
import Idealize.ShloMosaic.Lib.ValueLayout

noncomputable section

namespace Cert.KernelIdeal.Lanes

open Cert.KernelIdeal Cert.KernelIdeal.Gen Idealize.ShloMosaic Idealize.ShloMosaic.ValueIdx
open Cert.Interleave (pick_lt lane_row_lt lane_col_lt)

variable {F : FTy → Type} [FloatOps F]

/-! ## The table of lane numbers -/

/-- No entry of the table is negative: wrapping by 128 leaves each as it is. -/
theorem wrap_table : ∀ l : Fin 128,
    Scalar.select (IntOp.cmpi .slt (lit0 l) 0#32) (IntOp.addi (lit0 l) 128#32) (lit0 l) = lit0 l := by
  decide +kernel

/-- Entry `l` of the table is `l / 2` for an even `l` and `64 + l / 2` for an odd one (already below 128). -/
theorem table_val : ∀ l : Fin 128, (lit0 l).toNat % 128 = if l.val % 2 = 0 then l.val / 2 else 64 + l.val / 2 := by
  decide +kernel

/-! ## The tiles as rows of 64 -/

/-- The block's tiles, each flattened into a row of 64. -/
def flat (x0 : Vec F S1x96x8x8 .f32) : FVec F S96x64 .f32 :=
  shapeCast S96x64 (shapeCast S96x8x8 x0 shapeCasts_S1x96x8x8_S96x8x8) shapeCasts_S96x8x8_S96x64

/-- Entry `p` of row `i` is entry (p / 8, p % 8) of tile `i`. -/
theorem flat_apply (x0 : Vec F S1x96x8x8 .f32) (i : Fin 96) (p : Fin 64) :
    flat x0 (ix2 i p) = x0 (ix4 (0 : Fin 1) i (⟨p.val / 8, by omega⟩ : Fin 8) (⟨p.val % 8, by omega⟩ : Fin 8)) := by
  unfold flat
  refine (shapeCast_apply _ shapeCasts_S96x8x8_S96x64 (ix2 i p)
    (ix3 i (⟨p.val / 8, by omega⟩ : Fin 8) (⟨p.val % 8, by omega⟩ : Fin 8)) ?_).trans ?_
  · rw [Shape.rowMajor_val_three, Shape.rowMajor_val_two]
    show (i.val * 8 + p.val / 8) * 8 + p.val % 8 = i.val * 64 + p.val
    omega
  · exact shapeCast_1abc_abc_apply x0 shapeCasts_S1x96x8x8_S96x8x8 i _ _

/-! ## The rows repeated two ways and joined -/

/-- Row `i` at every `j`. -/
def alongSecond (v : FVec F S96x64 .f32) : FVec F S96x96x64 .f32 :=
  broadcastTo S96x96x64 (shapeCast S96x1x64 (shapeCast S96x1x64 v shapeCasts_S96x64_S96x1x64) shapeCasts_S96x1x64_S96x1x64)
    broadcasts_S96x1x64_S96x96x64

/-- Row `j` at every `i`. -/
def alongFirst (v : FVec F S96x64 .f32) : FVec F S96x96x64 .f32 :=
  broadcastTo S96x96x64 (shapeCast S1x96x64 (shapeCast S1x96x64 v shapeCasts_S96x64_S1x96x64) shapeCasts_S1x96x64_S1x96x64)
    broadcasts_S1x96x64_S96x96x64

theorem alongSecond_apply (v : FVec F S96x64 .f32) (i j : Fin 96) (p : Fin 64) :
    alongSecond v (ix3 i j p) = v (ix2 i p) := by
  unfold alongSecond
  refine (broadcastTo_apply _ broadcasts_S96x1x64_S96x96x64 (ix3 i j p) (ix3 i (0 : Fin 1) p) fun a => ?_).trans ?_
  · match a with
    | ⟨0, _⟩ => show i.val = if (96 : ℕ) = 1 then 0 else i.val; rw [if_neg (by decide)]
    | ⟨1, _⟩ => show 0 = if (1 : ℕ) = 1 then 0 else j.val; rw [if_pos rfl]
    | ⟨2, _⟩ => show p.val = if (64 : ℕ) = 1 then 0 else p.val; rw [if_neg (by decide)]
  · rw [shapeCast_self]
    refine shapeCast_apply v shapeCasts_S96x64_S96x1x64 (ix3 i (0 : Fin 1) p) (ix2 i p) ?_
    rw [Shape.rowMajor_val_three, Shape.rowMajor_val_two]
    show i.val * 64 + p.val = (i.val * 1 + 0) * 64 + p.val
    omega

theorem alongFirst_apply (v : FVec F S96x64 .f32) (i j : Fin 96) (p : Fin 64) :
    alongFirst v (ix3 i j p) = v (ix2 j p) := by
  unfold alongFirst
  refine (broadcastTo_apply _ broadcasts_S1x96x64_S96x96x64 (ix3 i j p) (ix3 (0 : Fin 1) j p) fun a => ?_).trans ?_
  · match a with
    | ⟨0, _⟩ => show 0 = if (1 : ℕ) = 1 then 0 else i.val; rw [if_pos rfl]
    | ⟨1, _⟩ => show j.val = if (96 : ℕ) = 1 then 0 else j.val; rw [if_neg (by decide)]
    | ⟨2, _⟩ => show p.val = if (64 : ℕ) = 1 then 0 else p.val; rw [if_neg (by decide)]
  · rw [shapeCast_self]
    refine shapeCast_apply v shapeCasts_S96x64_S1x96x64 (ix3 (0 : Fin 1) j p) (ix2 j p) ?_
    rw [Shape.rowMajor_val_three, Shape.rowMajor_val_two]
    show j.val * 64 + p.val = (0 * 96 + j.val) * 64 + p.val
    omega

/-- The two repetitions joined along the last axis: 128 lanes per (i, j). -/
def joined (x0 : Vec F S1x96x8x8 .f32) : FVec F S96x96x128 .f32 :=
  concatenate S96x96x128 2 [⟨S96x96x64, alongSecond (flat x0)⟩, ⟨S96x96x64, alongFirst (flat x0)⟩]
    concatenates_S96x96x64_S96x96x64_S96x96x128_d2

/-- A lane below 64 is an entry of tile `i`. -/
theorem joined_apply_lo (x0 : Vec F S1x96x8x8 .f32) (i j : Fin 96) (p : Fin 128) (q : Fin 64) (hq : q.val = p.val) :
    joined x0 (ix3 i j p) = flat x0 (ix2 i q) := by
  unfold joined
  exact (Cert.LastAxis.concatenate_apply_fst _ _ concatenates_S96x96x64_S96x96x64_S96x96x128_d2 i j p q hq).trans
    (alongSecond_apply _ i j q)

/-- A lane from 64 on is an entry of tile `j`. -/
theorem joined_apply_hi (x0 : Vec F S1x96x8x8 .f32) (i j : Fin 96) (p : Fin 128) (q : Fin 64) (hq : q.val + 64 = p.val) :
    joined x0 (ix3 i j p) = flat x0 (ix2 j q) := by
  unfold joined
  exact (Cert.LastAxis.concatenate_apply_snd _ _ concatenates_S96x96x64_S96x96x64_S96x96x128_d2 i j p q hq).trans
    (alongFirst_apply _ i j q)

/-! ## The table repeated over (i, j), negative entries wrapped -/

/-- The table at every (i, j). -/
def lanes (perm : Vec F S128 .i32) : IVec S96x96x128 32 :=
  broadcastTo S96x96x128 (shapeCast S1x1x128 (shapeCast S1x1x128 perm shapeCasts_S128_S1x1x128) shapeCasts_S1x1x128_S1x1x128)
    broadcasts_S1x1x128_S96x96x128

theorem lanes_apply (perm : Vec F S128 .i32) (i j : Fin 96) (l : Fin 128) : lanes perm (ix3 i j l) = perm (ix1 l) := by
  unfold lanes
  refine (broadcastTo_apply _ broadcasts_S1x1x128_S96x96x128 (ix3 i j l) (ix3 (0 : Fin 1) (0 : Fin 1) l) fun a => ?_).trans ?_
  · match a with
    | ⟨0, _⟩ => show 0 = if (1 : ℕ) = 1 then 0 else i.val; rw [if_pos rfl]
    | ⟨1, _⟩ => show 0 = if (1 : ℕ) = 1 then 0 else j.val; rw [if_pos rfl]
    | ⟨2, _⟩ => show l.val = if (128 : ℕ) = 1 then 0 else l.val; rw [if_neg (by decide)]
  · rw [shapeCast_self]
    refine shapeCast_apply perm shapeCasts_S128_S1x1x128 (ix3 (0 : Fin 1) (0 : Fin 1) l) (ix1 l) ?_
    rw [Shape.rowMajor_val_three, Shape.rowMajor_val_one]
    show l.val = (0 * 1 + 0) * 128 + l.val
    omega

/-- The repeated table with 128 added to every negative entry. -/
def wrapped (perm : Vec F S128 .i32) : IVec S96x96x128 32 :=
  select (cmpi .slt (lanes perm) (broadcast S96x96x128 0#32)) (addi (lanes perm) (broadcast S96x96x128 128#32)) (lanes perm)

/-- With the kernel's table nothing is wrapped. -/
theorem wrapped_apply (perm : Vec F S128 .i32) (hperm : ∀ l : Fin 128, perm (ix1 l) = lit0 l) (i j : Fin 96) (l : Fin 128) :
    wrapped perm (ix3 i j l) = lit0 l := by
  show Scalar.select (IntOp.cmpi .slt (lanes perm (ix3 i j l)) 0#32) (IntOp.addi (lanes perm (ix3 i j l)) 128#32)
    (lanes perm (ix3 i j l)) = lit0 l
  rw [lanes_apply perm i j l, hperm l]
  exact wrap_table l

/-! ## The payload -/

/-- The stored value is the gather of the joined vector by the wrapped table, under the block's leading unit axis. -/
theorem payload_eq (x0 : Vec F S1x96x8x8 .f32) (perm : Vec F S128 .i32) :
    k0_pay1 x0 perm = shapeCast S1x96x96x128 (dynamicGather 2 (joined x0)
      (shapeCast S96x96x128 (shapeCast S96x96x128x1 (wrapped perm) shapeCasts_S96x96x128_S96x96x128x1)
        shapeCasts_S96x96x128x1_S96x96x128)) shapeCasts_S96x96x128_S1x96x96x128 := rfl

/-- Lane `l` of (i, j) in the stored block: entry (l / 2 / 8, l / 2 % 8) of tile `i` for an even lane, of tile `j`
    for an odd one. -/
theorem payload_apply (x0 : Vec F S1x96x8x8 .f32) (perm : Vec F S128 .i32)
    (hperm : ∀ l : Fin 128, perm (ix1 l) = lit0 l) (u : Fin 1) (i j : Fin 96) (l : Fin 128) :
    k0_pay1 x0 perm (ix4 u i j l)
      = x0 (ix4 (0 : Fin 1) (⟨if l.val % 2 = 0 then i.val else j.val, pick_lt _ i j⟩ : Fin 96)
          (⟨l.val / 2 / 8, lane_row_lt l⟩ : Fin 8) (⟨l.val / 2 % 8, lane_col_lt l⟩ : Fin 8)) := by
  rw [payload_eq]
  refine (shapeCast_abc_1abc_apply _ shapeCasts_S96x96x128_S1x96x96x128 u i j l).trans ?_
  have hw : shapeCast S96x96x128 (shapeCast S96x96x128x1 (wrapped perm) shapeCasts_S96x96x128_S96x96x128x1)
      shapeCasts_S96x96x128x1_S96x96x128 (ix3 i j l) = lit0 l := by
    rw [shapeCast_shapeCast]; exact wrapped_apply perm hperm i j l
  have hl : l.val < 128 := l.isLt
  by_cases he : l.val % 2 = 0
  · -- an even lane: the first half of the joined vector
    refine (Cert.LastAxis.dynamicGather_apply (joined x0) _ i j l (⟨l.val / 2, by omega⟩ : Fin 128) ?_).trans ?_
    · rw [hw, table_val l, if_pos he]
    · refine (joined_apply_lo x0 i j _ (⟨l.val / 2, by omega⟩ : Fin 64) rfl).trans ?_
      refine (flat_apply x0 i _).trans (congrArg x0 (funext fun a => Fin.ext ?_))
      match a with
      | ⟨0, _⟩ => rfl
      | ⟨1, _⟩ => show i.val = if l.val % 2 = 0 then i.val else j.val; rw [if_pos he]
      | ⟨2, _⟩ => rfl
      | ⟨3, _⟩ => rfl
  · -- an odd lane: the second half
    refine (Cert.LastAxis.dynamicGather_apply (joined x0) _ i j l (⟨64 + l.val / 2, by omega⟩ : Fin 128) ?_).trans ?_
    · rw [hw, table_val l, if_neg he]
    · refine (joined_apply_hi x0 i j _ (⟨l.val / 2, by omega⟩ : Fin 64) (by show l.val / 2 + 64 = 64 + l.val / 2; omega)).trans ?_
      refine (flat_apply x0 j _).trans (congrArg x0 (funext fun a => Fin.ext ?_))
      match a with
      | ⟨0, _⟩ => rfl
      | ⟨1, _⟩ => show j.val = if l.val % 2 = 0 then i.val else j.val; rw [if_neg he]
      | ⟨2, _⟩ => rfl
      | ⟨3, _⟩ => rfl

end Cert.KernelIdeal.Lanes

end
-- ==== Proof.LaneBlocks.lean ====
/-
  The array the kernel's region leaves: the lane form of the input.

  The grid has one point per batch element. Point `t` is handed batch element `t` of the input — a [1, 96, 8, 8] block —
  and the whole table of lane numbers, which the program writes before the region (`0, 64, 1, 65, …`), and writes back
  batch element `t` of the [64, 96, 96, 128] result. What it writes back is, lane by lane, the lane form of the input
  read at batch element `t` (`flushed_eq`, from the payload read at an index). The 64 blocks tile the result (index
  (b, i, j, l) lies in point `b`'s block), so the region leaves the lane form of the whole input (`lane_array`).
-/
import proofs.«142939_j62826781606169_1_alg».proof.Proof.Gen.KernelIdeal.Frame
import proofs.«142939_j62826781606169_1_alg».proof.Proof.LaneGather
import Idealize.ShloMosaic.Lib.Pipeline.Value
import Idealize.ShloMosaic.Lib.StableHlo.Run

noncomputable section

namespace Cert.KernelIdeal.Lanes

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Interleave (laneForm)

variable {F : FTy → Type} [FloatOps F]
variable (m : (ℓ : Loc nD τ sig) → Buf (Elt F) ℓ) (ρ : Dev nD → PrngReg)

theorem zero4 : (![0, 0, 0, 0] : Fin 4 → Nat) = fun _ => 0 := funext fun a => by fin_cases a <;> rfl
theorem zero1 : (![0] : Fin 1 → Nat) = fun _ => 0 := funext fun a => by fin_cases a; rfl

/-- Where each window's block sits at point `t`: the input's and the result's at batch element `t`, the table's at
    its one position. -/
theorem block_index : ∀ t : Fin cfg0.N,
    win0_0.index t (0 : Fin 4) = t.val ∧ win0_0.index t (1 : Fin 4) = 0 ∧ win0_0.index t (2 : Fin 4) = 0
    ∧ win0_0.index t (3 : Fin 4) = 0 ∧ win0_1.index t (0 : Fin 1) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-! ## The table as the region finds it -/

/-- The program writes the table before the region: entry `l` is the literal's. -/
theorem table_entry (c : Dev nD) (l : Fin 128) : (V m c main_c : S128.Idx → BitVec 32) (ix1 l) = lit0 l := by
  have e : (V m c main_c : S128.Idx → BitVec 32) = fun i => lit0 (S128.rowMajor i) := by
    show StableHlo.after hostOps0 (fun b => m (c, b)) (Proc.devRef .tc main_c) = _
    after_results
    rfl
  rw [e]
  exact congrArg lit0 (Fin.ext ((Shape.rowMajor_val_one _).trans rfl))

/-- Every point is handed the whole table. -/
theorem table_block (c : Dev nD) (t : Fin cfg0.N) (l : Fin 128) :
    (iblk m c 1 t : Vec F S128 .i32) (ix1 l) = lit0 l := by
  obtain ⟨-, -, -, -, e1, -⟩ := block_index t
  rw [← table_entry m c l]
  unfold iblk
  rw [View.read_apply]
  show V m c main_c _ = V m c main_c _
  congr 1
  funext a
  apply Fin.ext
  match a with
  | ⟨0, _⟩ => show win0_1.index t (0 : Fin 1) * 128 + 1 * l.val = l.val; rw [e1]; omega

/-! ## The input block -/

/-- Point `t` is handed batch element `t`: entry (i, r, q) of its block is the input at (t, i, r, q). -/
theorem input_block (c : Dev nD) (t : Fin cfg0.N) (i : Fin 96) (r q : Fin 8) (k : S64x96x8x8.Idx)
    (hk0 : (k 0).val = t.val) (hk1 : (k 1).val = i.val) (hk2 : (k 2).val = r.val) (hk3 : (k 3).val = q.val) :
    (iblk m c 0 t : Vec F S1x96x8x8 .f32) (ix4 (0 : Fin 1) i r q)
      = (V m c main_arg0 : S64x96x8x8.Idx → Elt F .f32) k := by
  obtain ⟨e0, e1, e2, e3, -⟩ := block_index t
  unfold iblk
  rw [View.read_apply]
  show V m c main_arg0 _ = V m c main_arg0 _
  congr 1
  funext a
  apply Fin.ext
  match a with
  | ⟨0, _⟩ => show win0_0.index t (0 : Fin 4) * 1 + 1 * 0 = (k 0).val; rw [e0, hk0]; omega
  | ⟨1, _⟩ => show win0_0.index t (1 : Fin 4) * 96 + 1 * i.val = (k 1).val; rw [e1, hk1]; omega
  | ⟨2, _⟩ => show win0_0.index t (2 : Fin 4) * 8 + 1 * r.val = (k 2).val; rw [e2, hk2]; omega
  | ⟨3, _⟩ => show win0_0.index t (3 : Fin 4) * 8 + 1 * q.val = (k 3).val; rw [e3, hk3]; omega

/-! ## What a point writes back -/

/-- The stored block at point `t`, entry by entry, is the lane form of the input at the entry's place in the result. -/
theorem stored_apply (c : Dev nD) (t : Fin cfg0.N) (y : S1x96x96x128.Idx) :
    k0_pay1 (iblk m c 0 t) (iblk m c 1 t) y
      = laneForm (V m c main_arg0 : S64x96x8x8.Idx → Elt F .f32) (((cfg0.win 2).blk t).view.emb y) := by
  obtain ⟨u, i, j, l, rfl⟩ : ∃ (u : Fin 1) (i j : Fin 96) (l : Fin 128), y = ix4 u i j l :=
    ⟨y 0, y 1, y 2, y 3, eq_ix4 y⟩
  obtain ⟨-, -, -, -, -, f0, f1, f2, f3⟩ := block_index t
  have hu : u.val = 0 := by omega
  refine (payload_apply (iblk m c 0 t) (iblk m c 1 t) (table_block m c t) u i j l).trans ?_
  unfold laneForm
  refine input_block m c t _ _ _ _ ?_ ?_ ?_ ?_
  · show win0_2.index t (0 : Fin 4) * 1 + 1 * u.val = t.val
    rw [f0, hu]; omega
  · show (if (win0_2.index t (3 : Fin 4) * 128 + 1 * l.val) % 2 = 0 then win0_2.index t (1 : Fin 4) * 96 + 1 * i.val
        else win0_2.index t (2 : Fin 4) * 96 + 1 * j.val) = if l.val % 2 = 0 then i.val else j.val
    rw [f1, f2, f3]
    simp only [Nat.zero_mul, Nat.zero_add, Nat.one_mul]
  · show (win0_2.index t (3 : Fin 4) * 128 + 1 * l.val) / 2 / 8 = l.val / 2 / 8
    rw [f3]; simp only [Nat.zero_mul, Nat.zero_add, Nat.one_mul]
  · show (win0_2.index t (3 : Fin 4) * 128 + 1 * l.val) / 2 % 8 = l.val / 2 % 8
    rw [f3]; simp only [Nat.zero_mul, Nat.zero_add, Nat.one_mul]

/-- What point `t` writes back is block `t` of the lane form of the input. -/
theorem flushed_eq (c : Dev nD) (t : Fin cfg0.N) :
    (dats m 0 c).flushed 2 t
      = ((cfg0.win 2).blk t).view.read (Elt F) (laneForm (V m c main_arg0 : S64x96x8x8.Idx → Elt F .f32)) := by
  show (cfg0.win 2).cut (grid0.coords t) ((dats m 0 c).after 2 t) = _
  rw [after0_2]
  unfold out0_2
  rw [View.canon_unit_zero zero4]
  simp only [View.ld_unit_zero (S := S1x96x8x8) zero4, View.ld_unit_zero (S := S128) zero1]
  funext y
  exact stored_apply m c t y

/-! ## The blocks tile the result -/

/-- An index of the result is in point `t`'s block iff each coordinate is in the block's range on its axis. -/
theorem mem_block (t : Fin cfg0.N) (i : S64x96x96x128.Idx) :
    i ∈ ((cfg0.win 2).blk t).view.set ↔ ∀ a : Fin 4, win0_2.index t a * S1x96x96x128.size a ≤ (i a).val
      ∧ (i a).val < win0_2.index t a * S1x96x96x128.size a + S1x96x96x128.size a := by
  show i ∈ ((View.whole main_v0).slice (win0_2.rect t)).set ↔ _
  rw [View.set_slice_whole, Rect.mem_set_unit]
  exact Iff.rfl

/-- Index (b, i, j, l) lies in the block point `b` writes back. -/
theorem covered (i : S64x96x96x128.Idx) :
    ∃ t : Fin cfg0.N, (cfg0.win 2).flush t = true ∧ i ∈ ((cfg0.win 2).blk t).view.set := by
  have h0 : (i 0).val < 64 := (i 0).isLt
  have h1 : (i 1).val < 96 := (i 1).isLt
  have h2 : (i 2).val < 96 := (i 2).isLt
  have h3 : (i 3).val < 128 := (i 3).isLt
  have hN : cfg0.N = 64 := N_0
  obtain ⟨t, ht⟩ : ∃ t : Fin cfg0.N, t.val = (i 0).val := ⟨⟨(i 0).val, by omega⟩, rfl⟩
  obtain ⟨-, -, -, -, -, f0, f1, f2, f3⟩ := block_index t
  refine ⟨t, flush0_2 t, ?_⟩
  rw [mem_block]
  intro a
  match a with
  | ⟨0, _⟩ =>
    show win0_2.index t (0 : Fin 4) * 1 ≤ (i 0).val ∧ (i 0).val < win0_2.index t (0 : Fin 4) * 1 + 1
    rw [f0]; omega
  | ⟨1, _⟩ =>
    show win0_2.index t (1 : Fin 4) * 96 ≤ (i 1).val ∧ (i 1).val < win0_2.index t (1 : Fin 4) * 96 + 96
    rw [f1]; omega
  | ⟨2, _⟩ =>
    show win0_2.index t (2 : Fin 4) * 96 ≤ (i 2).val ∧ (i 2).val < win0_2.index t (2 : Fin 4) * 96 + 96
    rw [f2]; omega
  | ⟨3, _⟩ =>
    show win0_2.index t (3 : Fin 4) * 128 ≤ (i 3).val ∧ (i 3).val < win0_2.index t (3 : Fin 4) * 128 + 128
    rw [f3]; omega

/-- The region leaves the lane form of the input, as launched, in its result array. -/
theorem lane_array (c : Dev nD) :
    (dats m 0 c).arrAt 2 cfg0.N
      = laneForm (m ((c : Thread nD τ).loc main_arg0) : S64x96x8x8.Idx → Elt F .f32) := by
  rw [← V_main_arg0 m c]
  exact (dats m 0 c).arrAt_eq_of_cover 2 (laneForm (V m c main_arg0 : S64x96x8x8.Idx → Elt F .f32))
    (fun t _ => flushed_eq m c t) covered

end Cert.KernelIdeal.Lanes

end
-- ==== Proof.KernelPairs.lean ====
/-
  The kernel program's result: the pair form of the input.

  After the region the program reads its [64, 96, 96, 128] array in row-major order under the shape
  [64, 96, 96, 8, 8, 2]. The region leaves the lane form of the input (`lane_array`), and the lane form read that way
  is the pair form (`laneForm_reshape`). The input array itself is only ever read.
-/
import proofs.«142939_j62826781606169_1_alg».proof.Proof.LaneBlocks

noncomputable section

namespace Cert.KernelIdeal.Pairs

open Cert.KernelIdeal Cert.KernelIdeal.Gen Idealize.ShloMosaic Idealize.ShloMosaic.TcCoe Idealize.SL.Sem
open Idealize.ShloMosaic.StableHlo
open Idealize.ShloMosaic.Pipeline (Dat)
open Cert.Interleave (laneForm pairForm laneForm_reshape)

variable {F : FTy → Type} [FloatOps F]
variable (m : (ℓ : Loc nD τ sig) → Buf (Elt F) ℓ) (ρ : Dev nD → PrngReg)

/-- The program's result buffer is no array of the region. -/
theorem result_rest : main_v1 ∈ Pipeline.restRefs sig spec0 :=
  Pipeline.mem_restRefs_of main_v1 rfl (by decide)

/-- What the line after the region leaves in the result buffer: the region's array, the lane form of the input, read
    under the six-axis shape — the pair form. -/
theorem tail_eq (c : Dev nD) :
    Pipeline.afterTail₀ cfgs (dats m) 0 (V0 m) [hostOps1] c main_v1
      = pairForm (m ((c : Thread nD τ).loc main_arg0) : S64x96x8x8.Idx → Elt F .f32) := by
  have ew := (Pipeline.withArrays_arr spec0 launch0.win.arr_inj c (V0 m c)
    (fun w => (dats m 0 c).arrAt w cfg0.N) 2).trans (Cert.KernelIdeal.Lanes.lane_array m c)
  unfold Pipeline.afterTail₀
  show StableHlo.after hostOps1 _ (Proc.devRef .tc main_v1) = _
  after_results
  funext i
  show shapeCast S64x96x96x8x8x2 (Pipeline.withArrays spec0 c (V0 m c) (fun w => (dats m 0 c).arrAt w cfg0.N)
    (Proc.devRef .tc main_v0)) shapeCasts_S64x96x96x128_S64x96x96x8x8x2 i = _
  exact (congrFun (congrArg (fun v => shapeCast S64x96x96x8x8x2 v shapeCasts_S64x96x96x128_S64x96x96x8x8x2) ew) i).trans
    (congrFun (laneForm_reshape _ _) i)

/-- The run, read: every weakly fair execution terminates with the result buffer at the pair form of the input and the
    input as launched. -/
theorem run : θ_run defs (onTc (τ := τ) (main (F := F))) ⟨m, fun _ => 0, ρ⟩ fun r => ∀ c : Dev nD,
      r.2.mem ((c : Thread nD τ).loc main_v1)
        = pairForm (m ((c : Thread nD τ).loc main_arg0) : S64x96x8x8.Idx → Elt F .f32)
      ∧ r.2.mem ((c : Thread nD τ).loc main_arg0) = m ((c : Thread nD τ).loc main_arg0) :=
  (θ_run defs _ _).mono (fun r h c => ⟨((h c).2 main_v1 result_rest).trans (tail_eq m c),
      ((h c).1 0).trans (((dats m 0 c).arrAt_in 0 rfl _).trans ((A_eq m c 0).trans (V_main_arg0 m c)))⟩)
    (run_main m ρ)

end Cert.KernelIdeal.Pairs

end
-- ==== Proof.lean ====
/-
  The claim: a kernel that pairs the 96 tiles of each batch element against its plain reference.

  For an input `x` of shape [64, 96, 8, 8] both programs produce, at (b, i, j, p, q, s), the entry (p, q) of tile `i` of
  batch element `b` when `s = 0` and of tile `j` when `s = 1` (`Cert.Interleave.pairForm`). The reference builds it
  from two repetitions of the input joined along a last axis of extent 2 (`Cert.ReferenceIdeal.Pairs.result_eq`). The
  kernel builds, per batch element, a lane-dense [96, 96, 128] block by joining the flattened tiles two ways and
  permuting the 128 lanes with the table 0, 64, 1, 65, …; the 64 blocks tile a [64, 96, 96, 128] array, which read in
  row-major order under the six-axis shape is the same function (`Cert.KernelIdeal.Pairs.run`). Nothing is computed:
  every entry of the result is one entry of the input, so the two results agree for every input whatever, and the
  precondition is never opened. The idealization rewrote no operation, so there is nothing to preserve.
-/
import proofs.«142939_j62826781606169_1_alg».proof.Defs
import proofs.«142939_j62826781606169_1_alg».proof.Proof.Gen.Kernel
import proofs.«142939_j62826781606169_1_alg».proof.Proof.Gen.Kernel.Skeleton
import proofs.«142939_j62826781606169_1_alg».proof.Proof.Gen.Kernel.Launch
import proofs.«142939_j62826781606169_1_alg».proof.Proof.Gen.Kernel.Points
import proofs.«142939_j62826781606169_1_alg».proof.Proof.Gen.Kernel.Frame
import proofs.«142939_j62826781606169_1_alg».proof.Proof.Gen.KernelIdeal
import proofs.«142939_j62826781606169_1_alg».proof.Proof.Gen.KernelIdeal.Skeleton
import proofs.«142939_j62826781606169_1_alg».proof.Proof.Gen.KernelIdeal.Launch
import proofs.«142939_j62826781606169_1_alg».proof.Proof.Gen.KernelIdeal.Points
import proofs.«142939_j62826781606169_1_alg».proof.Proof.Gen.KernelIdeal.Frame
import proofs.«142939_j62826781606169_1_alg».proof.Proof.Gen.ReferenceIdeal
import proofs.«142939_j62826781606169_1_alg».proof.Proof.Gen.ReferenceIdeal.Run
import proofs.«142939_j62826781606169_1_alg».proof.Proof.Gen.ReferenceIdeal.Read
import proofs.«142939_j62826781606169_1_alg».proof.Proof.Gen.Pre_finite_inputs
import proofs.«142939_j62826781606169_1_alg».proof.Proof.RefPairs
import proofs.«142939_j62826781606169_1_alg».proof.Proof.KernelPairs
import Idealize.ShloMosaic.Adequacy
import Idealize.ShloMosaic.Init

noncomputable section

namespace Cert.Proof

open Idealize.ShloMosaic Idealize.ShloMosaic.TcCoe Idealize.SL.Sem

/-- The kernel program as printed runs, and only reads its argument. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and only reads its argument: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end with the pair form of it. -/
theorem algebraic : Cert.algebraic_KernelIdeal_ReferenceIdeal := by
  intro m ρ m' ρ' _ hagree
  refine ⟨fun c => Cert.Interleave.pairForm
      (m ((c.tc : Thread Cert.KernelIdeal.nD Cert.KernelIdeal.τ).loc Cert.KernelIdeal.main_arg0)),
    Cert.KernelIdeal.Pairs.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Pairs.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
